-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64 .f32) (main_arg9 : FVec F S64x32 .f32) (main_arg10 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S128x64 .f32) (main_arg8 : FVec F S64 .f32) (main_arg9 : FVec F S64x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x32 .f32) (main_arg1 : IVec S2x1600000 32) (main_arg2 : FVec F S1600000x32 .f32) (main_arg3 : FVec F S64x64 .f32) (main_arg4 : FVec F S64 .f32) (main_arg5 : FVec F S64x128 .f32) (main_arg6 : FVec F S128 .f32) (main_arg7 : FVec F S128x64 .f32) (main_arg8 : FVec F S64 .f32) (main_arg9 : FVec F S64x32 .f32) (main_arg10 : FVec F S32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x32 : Shape := ⟨2, ![50000, 32]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S1x128 : Shape := ⟨2, ![1, 128]⟩
abbrev S1x32 : Shape := ⟨2, ![1, 32]⟩
abbrev S8000x32 : Shape := ⟨2, ![8000, 32]⟩
abbrev S8000x64 : Shape := ⟨2, ![8000, 64]⟩
abbrev S8000x128 : Shape := ⟨2, ![8000, 128]⟩
abbrev S50000 : Shape := ⟨1, ![50000]⟩
abbrev S50000x1 : Shape := ⟨2, ![50000, 1]⟩

abbrev nBuf : Space → Nat
  | .hbm => 48
  | .vmem => 14
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S50000x32, .bf16⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .bf16⟩
  | .hbm, ⟨23, _⟩ => ⟨S64x64, .bf16⟩
  | .hbm, ⟨24, _⟩ => ⟨S64x128, .bf16⟩
  | .hbm, ⟨25, _⟩ => ⟨S128x64, .bf16⟩
  | .hbm, ⟨26, _⟩ => ⟨S64x32, .bf16⟩
  | .hbm, ⟨27, _⟩ => ⟨S1x64, .f32⟩
  | .hbm, ⟨28, _⟩ => ⟨S1x128, .f32⟩
  | .hbm, ⟨29, _⟩ => ⟨S1x64, .f32⟩
  | .hbm, ⟨30, _⟩ => ⟨S1x32, .f32⟩
  | .hbm, ⟨31, _⟩ => ⟨S1600000x32, .f32⟩
  | .hbm, ⟨32, _⟩ => ⟨S_, .f32⟩
  | .hbm, ⟨33, _⟩ => ⟨S50000x32, .f32⟩
  | .hbm, ⟨34, _⟩ => ⟨S1600000x1, .i32⟩
  | .hbm, ⟨35, _⟩ => ⟨S50000x32, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S50000, .f32⟩
  | .hbm, ⟨40, _⟩ => ⟨S1600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x32, .f32⟩
  | .hbm, ⟨47, _⟩ => ⟨S50000x32, .f32⟩
  | .local _ .vmem, ⟨0, _⟩ => ⟨S8000x32, .bf16⟩
  | .local _ .vmem, ⟨1, _⟩ => ⟨S8000x32, .bf16⟩
  | .local _ .vmem, ⟨2, _⟩ => ⟨S8000x32, .f32⟩
  | .local _ .vmem, ⟨3, _⟩ => ⟨S8000x32, .f32⟩
  | .local _ .vmem, ⟨4, _⟩ => ⟨S64x64, .bf16⟩
  | .local _ .vmem, ⟨5, _⟩ => ⟨S1x64, .f32⟩
  | .local _ .vmem, ⟨6, _⟩ => ⟨S64x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S64x32, .bf16⟩
  | .local _ .vmem, ⟨11, _⟩ => ⟨S1x32, .f32⟩
  | .local _ .vmem, ⟨12, _⟩ => ⟨S8000x32, .f32⟩
  | .local _ .vmem, ⟨13, _⟩ => ⟨S8000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_1_0 : S2x1600000.Slices ![1, 0] S1x1600000
  shapeCasts_S1x1600000_S1600000 : S1x1600000.ShapeCasts S1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  shapeCasts_S128_S1x128 : S128.ShapeCasts S1x128
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  concatenates_S8000x32_S8000x32_S8000x64_d1 : Shape.Concatenates [S8000x32, S8000x32] S8000x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  dot_S8000x64_S64x64_S8000x64_1_0_0_1_n_n_wf : DotDims.WF S8000x64 S64x64 S8000x64 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .bf16 = 32 ∨ (Rect.block (s := S1600000x32) S8000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .bf16 = 32 ∨ (Rect.block (s := S64x32) S64x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x32.size a ≤ S1600000x32.size a
  hwx0_10 : ∀ i : grid0.Coords, EltTy.bits .f32 = 32 ∨ (Rect.block (s := S1600000x32) S8000x32.size (cc0_transform_10 i) (hinb0_10 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_v9) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S8000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1600000x128 : Shape := ⟨2, ![1600000, 128]⟩
abbrev S1x128 : Shape := ⟨2, ![1, 128]⟩
abbrev S1x32 : Shape := ⟨2, ![1, 32]⟩
abbrev S50000 : Shape := ⟨1, ![50000]⟩
abbrev S50000x1 : Shape := ⟨2, ![50000, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x64, .f32⟩
  | .hbm, ⟨23, _⟩ => ⟨S1600000x64, .f32⟩
  | .hbm, ⟨24, _⟩ => ⟨S1x64, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S1600000x64, .f32⟩
  | .hbm, ⟨29, _⟩ => ⟨S1600000x64, .f32⟩
  | .hbm, ⟨30, _⟩ => ⟨S1600000x128, .f32⟩
  | .hbm, ⟨31, _⟩ => ⟨S1x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x32, .f32⟩
  | .hbm, ⟨45, _⟩ => ⟨S1x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S_, .f32⟩
  | .hbm, ⟨52, _⟩ => ⟨S50000x32, .f32⟩
  | .hbm, ⟨53, _⟩ => ⟨S1600000x1, .i32⟩
  | .hbm, ⟨54, _⟩ => ⟨S50000x32, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S50000, .f32⟩
  | .hbm, ⟨59, _⟩ => ⟨S1600000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x32, .f32⟩
  | .hbm, ⟨66, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_cst : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call3_cst : Ref sig .tc := ⟨.hbm, 48, rfl⟩
abbrev main_call3_v0 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  dot_S1600000x64_S64x64_S1600000x64_1_0_0_1_n_n_wf : DotDims.WF S1600000x64 S64x64 S1600000x64 [1] [0] [0] [1] [] []
  dot_S1600000x64_S64x128_S1600000x128_1_0_0_1_n_n_wf : DotDims.WF S1600000x64 S64x128 S1600000x128 [1] [0] [0] [1] [] []
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«179524_j45526653337868_2_alg».proof.Proof.LibPlainDot
import proofs.«179524_j45526653337868_2_alg».proof.Proof.LibBiasRow
import proofs.«179524_j45526653337868_2_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibLayer.lean ====
/-
  One layer of a perceptron on matrices of extended reals, and the machine's two spellings of it.

  A layer takes an [n, k] matrix a, a [k, d] weight matrix w and a one-row bias matrix b to the [n, d] matrix whose entry
  (p, o) is  max(sum over j of a(p, j) * w(j, o) + b(0, o), 0)  — the zero being what the zero word of the 32-bit float
  format denotes.  Row p of the result depends on row p of a only (`layer_row`), so a layer of a block of rows is the
  same rows of the layer of the whole matrix; nothing is distributed or cancelled, so this holds at the infinities.

  A matrix unit spells a layer as a product into the zero accumulator, the bias row spread over the rows and added, and
  the maximum against a splat of the zero word (`unit_layer`).  A host program spells it as a contraction with the same
  dimension numbers, the bias VECTOR placed as a row, spread over the rows and added, and the maximum against the zero
  word spread from a scalar (`host_layer`): the same layer, its bias row the vector reshaped to one row.  Both hold for
  operands of any float formats and any extents.
-/
import Idealize.ShloMosaic.PureOps.Ideal
import Idealize.ShloMosaic.Lib.ValueIdx
import Idealize.ShloMosaic.Lib.Pipeline.Value
import proofs.«179524_j45526653337868_2_alg».proof.Proof.LibRowStages

noncomputable section

namespace Cert.LibLayer

open Idealize.ShloMosaic Idealize.ShloMosaic.ValueIdx Cert.LibRowStages

/-- One layer: the product with the weights, the bias row added to every row, the floor at zero. -/
def layer {n k d : ℕ} (a : Mat n k) (w : Mat k d) (b : Mat 1 d) : Mat n d := relu (addRow (mm a w) b)

/-- A layer works one row at a time. -/
theorem layer_row {m n k d : ℕ} {ab : Mat m k} {q : Fin m} {a : Mat n k} {p : Fin n} (h : RowEq ab q a p)
    (w : Mat k d) (b : Mat 1 d) : RowEq (layer ab w b) q (layer a w b) p :=
  relu_row (addRow_row (mm_row h w) b)

/-! ## The machine's two spellings -/

/-- A matrix unit's layer: the product into the zero accumulator, the bias row spread over the rows and added, the
    maximum against a splat of the zero word.  Whatever the operands' float formats. -/
theorem unit_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hb : (⟨2, ![1, d]⟩ : Shape).Broadcasts ⟨2, ![n, d]⟩)
    (l : FVec Ideal ⟨2, ![n, k]⟩ φ₁) (w : FVec Ideal ⟨2, ![k, d]⟩ φ₂) (b : FVec Ideal ⟨2, ![1, d]⟩ .f32) :
    maximumf (addf (matmul D none l w (constant ⟨2, ![n, d]⟩ .f32 0x00000000#32)) (broadcastTo ⟨2, ![n, d]⟩ b hb))
        (broadcast ⟨2, ![n, d]⟩ (Scalar.ofBits (F := Ideal) .f32 0x00000000#32))
      = layer l w b := by
  rw [matmul_eq_mm D hlc hrc hln hrn hlb hrb none l w, addf_spread_eq_addRow hb, maximumf_zero_eq_relu]
  rfl

/-- A host program's layer: the contraction with the same dimension numbers, the bias vector placed as a row, spread
    over the rows and added, the maximum against the zero word spread from a scalar.  The bias row is the vector
    reshaped to one row. -/
theorem host_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (l : FVec Ideal ⟨2, ![n, k]⟩ φ₁) (w : FVec Ideal ⟨2, ![k, d]⟩ φ₂) (v : FVec Ideal ⟨1, ![d]⟩ .f32) :
    maximumf (addf (Host.dotGeneral D none l w)
          (broadcastInDim ⟨2, ![n, d]⟩ ![0, 1] h2 (broadcastInDim ⟨2, ![1, d]⟩ ![1] h1 v)))
        (broadcastInDim ⟨2, ![n, d]⟩ ![] h0 (constant (F := Ideal) ⟨0, ![]⟩ .f32 0x00000000#32))
      = layer l w (shapeCast ⟨2, ![1, d]⟩ v hc) := by
  rw [dotGeneral_eq_mm D hlc hrc hln hrn hlb hrb none l w, addf_hostBias_eq_addRow h1 h2 hc, maximumf_hostZero_eq_relu h0]
  rfl

end Cert.LibLayer

end
-- ==== Proof.LibConcatColumns.lean ====
/-
  TWO MATRICES JOINED SIDE BY SIDE, READ AT AN INDEX. The concatenation along axis 1 of an [n, a] matrix and an
  [n, b] matrix into [n, c]: entry (p, k) of the result is the left matrix's (p, k) for a column k of the left
  piece, and the right matrix's (p, k) at result column a + k. General in the extents and in the element type.
-/
import Idealize.ShloMosaic.Lib.Pipeline.Value
import Idealize.ShloMosaic.Lib.ValueIdx

namespace Cert.LibConcatColumns

open Idealize.ShloMosaic Idealize.ShloMosaic.ValueIdx

variable {α : Type} {n a b c : ℕ}

/-- A column of the left piece: the result's entry there is the left matrix's entry. -/
theorem concat_cols_left (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin a) (hk : k.val < c) :
    concatenate (⟨2, ![n, c]⟩ : Shape) 1 [⟨⟨2, ![n, a]⟩, x₁⟩, ⟨⟨2, ![n, b]⟩, x₂⟩] h (ix2 p (⟨k.val, hk⟩ : Fin c)) = x₁ (ix2 p k) :=
  concatenate_pair_apply_left (1 : Fin 2) x₁ x₂ h (ix2 p (⟨k.val, hk⟩ : Fin c)) rfl (ix2 p k)
    (fun d => match d with | ⟨0, _⟩ => rfl | ⟨1, _⟩ => rfl)

/-- A column of the right piece: the result's entry at column a + k is the right matrix's entry at column k. -/
theorem concat_cols_right (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin b) (hk : a + k.val < c) :
    concatenate (⟨2, ![n, c]⟩ : Shape) 1 [⟨⟨2, ![n, a]⟩, x₁⟩, ⟨⟨2, ![n, b]⟩, x₂⟩] h (ix2 p (⟨a + k.val, hk⟩ : Fin c)) = x₂ (ix2 p k) :=
  concatenate_pair_apply_right (1 : Fin 2) x₁ x₂ h (ix2 p (⟨a + k.val, hk⟩ : Fin c)) rfl rfl (ix2 p k)
    (fun d => match d with
      | ⟨0, _⟩ => fun _ => rfl
      | ⟨1, _⟩ => fun hne => absurd rfl hne)
    (show k.val + a = a + k.val from Nat.add_comm _ _)

end Cert.LibConcatColumns
-- ==== Proof.Mlp.lean ====
/-
  The edge perceptron on matrices of extended reals, one row at a time.

  An edge's input row is the target node's 32 features followed by the edge's own 32 attributes: the two [n, 32]
  matrices joined side by side into [n, 64].  Four layers follow, each a matrix product with a weight matrix, a bias
  row added to every row, and the floor at zero:  64 -> 64 -> 128 -> 64 -> 32.

  Every step works one row at a time: row p of the result depends on row p of the two joined matrices only, and on the
  weights and biases.  So the perceptron of a block of rows is the same rows of the perceptron of the whole matrices
  (`mlp_row`): whatever tiling of the edges a program uses, it computes the same [n, 32] matrix of messages.
  Nothing is distributed or cancelled, so this holds at the infinities too.
-/
import Idealize.ShloMosaic.PureOps.Ideal
import Idealize.ShloMosaic.Lib.ValueIdx
import Idealize.ShloMosaic.Lib.Pipeline.Value
import proofs.«179524_j45526653337868_2_alg».proof.Proof.LibRowStages
import proofs.«179524_j45526653337868_2_alg».proof.Proof.LibLayer
import proofs.«179524_j45526653337868_2_alg».proof.Proof.LibConcatColumns

noncomputable section

namespace Cert.Mlp

open Idealize.ShloMosaic Idealize.ShloMosaic.ValueIdx Cert.LibRowStages Cert.LibLayer

/-! ## The join -/

/-- Two [n, 32] matrices side by side: columns 0..31 are the first matrix's, columns 32..63 the second's. -/
def join {n : ℕ} (x e : Mat n 32) : Mat n 64 := fun i =>
  if h : (i 1).val < 32 then x (ix2 (i 0) (⟨(i 1).val, h⟩ : Fin 32))
  else e (ix2 (i 0) (⟨(i 1).val - 32, by have := idx2_lt1 i; omega⟩ : Fin 32))

/-- The join at a column of the first matrix. -/
theorem join_left {n : ℕ} (x e : Mat n 32) (p : Fin n) (k : Fin 64) (h : k.val < 32) :
    join x e (ix2 p k) = x (ix2 p (⟨k.val, h⟩ : Fin 32)) := dif_pos h

/-- The join at a column of the second matrix. -/
theorem join_right {n : ℕ} (x e : Mat n 32) (p : Fin n) (k : Fin 64) (h : ¬ k.val < 32) :
    join x e (ix2 p k) = e (ix2 p (⟨k.val - 32, by have := k.isLt; omega⟩ : Fin 32)) := dif_neg h

/-- The join works one row at a time. -/
theorem join_row {m n : ℕ} {xb eb : Mat m 32} {q : Fin m} {x e : Mat n 32} {p : Fin n}
    (hx : RowEq xb q x p) (he : RowEq eb q e p) : RowEq (join xb eb) q (join x e) p := fun k => by
  by_cases h : k.val < 32
  · rw [join_left xb eb q k h, join_left x e p k h]; exact hx _
  · rw [join_right xb eb q k h, join_right x e p k h]; exact he _

/-- A two-piece concatenation along the columns of two [n, 32] matrices is the join. -/
theorem concatenate_eq_join {n : ℕ} (x e : Mat n 32)
    (h : Shape.Concatenates [(⟨2, ![n, 32]⟩ : Shape), ⟨2, ![n, 32]⟩] ⟨2, ![n, 64]⟩ 1) :
    concatenate (⟨2, ![n, 64]⟩ : Shape) 1 [⟨⟨2, ![n, 32]⟩, x⟩, ⟨⟨2, ![n, 32]⟩, e⟩] h = join x e := by
  funext i
  obtain ⟨p, k, rfl⟩ : ∃ (p : Fin n) (k : Fin 64), i = ix2 p k := ⟨i 0, i 1, eq_ix2 i⟩
  by_cases hk : k.val < 32
  · rw [join_left x e p k hk]
    exact Cert.LibConcatColumns.concat_cols_left x e h p (⟨k.val, hk⟩ : Fin 32) k.isLt
  · rw [join_right x e p k hk]
    have hk' : 32 + (k.val - 32) < 64 := by have := k.isLt; omega
    have e1 : k = (⟨32 + (k.val - 32), hk'⟩ : Fin 64) := Fin.ext (by show k.val = 32 + (k.val - 32); omega)
    conv_lhs => rw [e1]
    exact Cert.LibConcatColumns.concat_cols_right x e h p (⟨k.val - 32, by have := k.isLt; omega⟩ : Fin 32) hk'

/-! ## Four layers -/

/-- The perceptron: the join, then four layers of widths 64, 128, 64, 32. -/
def mlp {n : ℕ} (x e : Mat n 32) (w1 : Mat 64 64) (b1 : Mat 1 64) (w2 : Mat 64 128) (b2 : Mat 1 128)
    (w3 : Mat 128 64) (b3 : Mat 1 64) (w4 : Mat 64 32) (b4 : Mat 1 32) : Mat n 32 :=
  layer (layer (layer (layer (join x e) w1 b1) w2 b2) w3 b3) w4 b4

/-- The perceptron works one row at a time: if row q of the two block matrices is row p of the two whole matrices,
    row q of the block's perceptron is row p of the whole perceptron. -/
theorem mlp_row {m n : ℕ} {xb eb : Mat m 32} {q : Fin m} {x e : Mat n 32} {p : Fin n}
    (hx : RowEq xb q x p) (he : RowEq eb q e p) (w1 : Mat 64 64) (b1 : Mat 1 64) (w2 : Mat 64 128) (b2 : Mat 1 128)
    (w3 : Mat 128 64) (b3 : Mat 1 64) (w4 : Mat 64 32) (b4 : Mat 1 32) :
    RowEq (mlp xb eb w1 b1 w2 b2 w3 b3 w4 b4) q (mlp x e w1 b1 w2 b2 w3 b3 w4 b4) p :=
  layer_row (layer_row (layer_row (layer_row (join_row hx he) w1 b1) w2 b2) w3 b3) w4 b4

end Cert.Mlp

end
-- ==== Proof.KernelBlock.lean ====
/-
  What one grid point leaves in the output block.

  The kernel body loads its ten blocks whole, joins the 8000 gathered node rows with the 8000 edge-attribute rows,
  applies the four layers on the matrix unit and the vector unit, and stores the [8000, 32] result whole.  At the
  exact extended reals every change of float format is the identity, so the stored block is the perceptron
  (`Cert.Mlp.mlp`) of the ten loaded blocks: the two row blocks, the four weight matrices and the four bias rows.
-/
import proofs.«179524_j45526653337868_2_alg».proof.Proof.Gen.KernelIdeal.Frame
import proofs.«179524_j45526653337868_2_alg».proof.Proof.Mlp
import Idealize.ShloMosaic.Lib.Pipeline.Value

noncomputable section

namespace Cert.KernelIdeal.Block

open Idealize.ShloMosaic Idealize.ShloMosaic.ValueIdx Cert.KernelIdeal Cert.KernelIdeal.Gen Cert.LibRowStages Cert.LibLayer Cert.Mlp

theorem hz : (![0, 0] : Fin 2 → Nat) = fun _ => 0 := funext fun a => by fin_cases a <;> rfl

/-- The body's arithmetic on its loaded blocks is the perceptron of them: each matrix-unit product into the zero
    accumulator with its bias row and floor is one layer, the format changes between layers are the identity, and the
    two-piece concatenation is the join. -/
theorem payload_eq (x0 : Vec Ideal S8000x32 .bf16) (x1 : Vec Ideal S8000x32 .f32) (x2 : Vec Ideal S64x64 .bf16)
    (x3 : Vec Ideal S1x64 .f32) (x4 : Vec Ideal S64x128 .bf16) (x5 : Vec Ideal S1x128 .f32) (x6 : Vec Ideal S128x64 .bf16)
    (x7 : Vec Ideal S1x64 .f32) (x8 : Vec Ideal S64x32 .bf16) (x9 : Vec Ideal S1x32 .f32) :
    k0_pay1 (F := Ideal) (k0_pay2 x0 x1 x2 x3 x4 x5 x6 x7) x8 x9 = mlp x0 x1 x2 x3 x4 x5 x6 x7 x8 x9 := by
  unfold k0_pay1 k0_pay2
  simp only [shapeCast_self, truncf_eq]
  rw [unit_layer dot_S8000x64_S64x64_S8000x64_1_0_0_1_n_n rfl rfl rfl rfl rfl rfl,
    unit_layer dot_S8000x64_S64x128_S8000x128_1_0_0_1_n_n rfl rfl rfl rfl rfl rfl,
    unit_layer dot_S8000x128_S128x64_S8000x64_1_0_0_1_n_n rfl rfl rfl rfl rfl rfl,
    unit_layer dot_S8000x64_S64x32_S8000x32_1_0_0_1_n_n rfl rfl rfl rfl rfl rfl]
  have e0 : shapeCast S8000x32 x0 shapeCasts_S8000x32_S8000x32 = x0 := shapeCast_self _ _
  rw [e0, concatenate_eq_join (n := 8000) x0 x1 concatenates_S8000x32_S8000x32_S8000x64_d1]
  rfl

/-- The output block after the body: its one store covers the block from offset zero, every load reads a whole
    block from offset zero, so the block holds the perceptron of the ten input blocks. -/
theorem block_eq (x0 : Vec Ideal S8000x32 .bf16) (x1 : Vec Ideal S8000x32 .f32) (x2 : Vec Ideal S64x64 .bf16)
    (x3 : Vec Ideal S1x64 .f32) (x4 : Vec Ideal S64x128 .bf16) (x5 : Vec Ideal S1x128 .f32) (x6 : Vec Ideal S128x64 .bf16)
    (x7 : Vec Ideal S1x64 .f32) (x8 : Vec Ideal S64x32 .bf16) (x9 : Vec Ideal S1x32 .f32) :
    out0_10 (F := Ideal) x0 x1 x2 x3 x4 x5 x6 x7 x8 x9 = mlp x0 x1 x2 x3 x4 x5 x6 x7 x8 x9 := by
  unfold out0_10
  rw [View.canon_unit_zero hz]
  simp only [View.ld_unit_zero (S := S8000x32) hz, View.ld_unit_zero (S := S64x64) hz, View.ld_unit_zero (S := S1x64) hz,
    View.ld_unit_zero (S := S64x128) hz, View.ld_unit_zero (S := S1x128) hz, View.ld_unit_zero (S := S128x64) hz,
    View.ld_unit_zero (S := S64x32) hz, View.ld_unit_zero (S := S1x32) hz]
  exact payload_eq x0 x1 x2 x3 x4 x5 x6 x7 x8 x9

end Cert.KernelIdeal.Block

end
-- ==== Proof.KernelMessages.lean ====
/-
  The message array after the region.

  The grid has 200 points; point t loads rows 8000 t .. 8000 t + 7999 of the gathered node features and of the edge
  attributes, the four weight matrices and the four bias rows whole, and writes back rows 8000 t .. 8000 t + 7999 of
  the [1600000, 32] message array.  What it writes is the perceptron of its blocks (`Block.block_eq`), and since the
  perceptron works one row at a time (`Cert.Mlp.mlp_row`) that is rows 8000 t .. 8000 t + 7999 of the perceptron of
  the WHOLE arrays.  The 200 row blocks tile the array (row r is in block r / 8000), so after the region the message
  array is the perceptron of the whole arrays as the region finds them.
-/
import proofs.«179524_j45526653337868_2_alg».proof.Proof.Gen.KernelIdeal.Frame
import proofs.«179524_j45526653337868_2_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Messages

open Idealize.ShloMosaic.ValueIdx Cert.KernelIdeal Cert.KernelIdeal.Gen Cert.LibRowStages Cert.Mlp

variable (m : (ℓ : Loc nD τ sig) → Buf (Elt Ideal) ℓ)

/-! ## The index maps, decided once over the grid -/

/-- The two row windows and the output window sit at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The weight and bias windows stay at block (0, 0). -/
theorem still_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## Each input block, read off its array -/

/-- Row q of the gathered-features block at point t is row 8000 t + q of the gathered-features array. -/
theorem rows0 (c : Dev nD) (t : Fin cfg0.N) (q : Fin 8000) (p : Fin 1600000) (hp : p.val = 8000 * t.val + q.val) :
    RowEq (iblk m c 0 t : Vec Ideal S8000x32 .bf16) q (V m c main_v9 : Vec Ideal S1600000x32 .bf16) p := fun j => by
  obtain ⟨e0, e1, -⟩ := idx_facts t
  unfold iblk
  rw [View.read_apply]
  show V m c main_v9 _ = V m c main_v9 _
  refine congrArg (V m c main_v9) ?_
  funext a
  apply Fin.ext
  match a with
  | ⟨0, _⟩ => show win0_0.index t 0 * 8000 + 1 * q.val = p.val; rw [e0, hp]; omega
  | ⟨1, _⟩ => show win0_0.index t 1 * 32 + 1 * j.val = j.val; rw [e1]; omega

/-- Row q of the edge-attribute block at point t is row 8000 t + q of the edge-attribute array. -/
theorem rows1 (c : Dev nD) (t : Fin cfg0.N) (q : Fin 8000) (p : Fin 1600000) (hp : p.val = 8000 * t.val + q.val) :
    RowEq (iblk m c 1 t : Vec Ideal S8000x32 .f32) q (V m c main_arg2 : Vec Ideal S1600000x32 .f32) p := fun j => by
  obtain ⟨-, -, e0, e1, -⟩ := idx_facts t
  unfold iblk
  rw [View.read_apply]
  show V m c main_arg2 _ = V m c main_arg2 _
  refine congrArg (V m c main_arg2) ?_
  funext a
  apply Fin.ext
  match a with
  | ⟨0, _⟩ => show win0_1.index t 0 * 8000 + 1 * q.val = p.val; rw [e0, hp]; omega
  | ⟨1, _⟩ => show win0_1.index t 1 * 32 + 1 * j.val = j.val; rw [e1]; omega

/-- Window 2's block at every point is the whole array (it does not move with the grid). -/
theorem whole2 (c : Dev nD) (t : Fin cfg0.N) : (iblk m c 2 t : Vec Ideal S64x64 .bf16) = V m c main_v10 := by
  obtain ⟨e0, e1, -, -, -, -, -, -, -, -, -, -, -, -, -, -⟩ := still_facts t
  funext y
  unfold iblk
  rw [View.read_apply]
  show V m c main_v10 _ = V m c main_v10 y
  refine congrArg (V m c main_v10) ?_
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

/-- Window 3's block at every point is the whole array (it does not move with the grid). -/
theorem whole3 (c : Dev nD) (t : Fin cfg0.N) : (iblk m c 3 t : Vec Ideal S1x64 .f32) = V m c main_v14 := by
  obtain ⟨-, -, e0, e1, -, -, -, -, -, -, -, -, -, -, -, -⟩ := still_facts t
  funext y
  unfold iblk
  rw [View.read_apply]
  show V m c main_v14 _ = V m c main_v14 y
  refine congrArg (V m c main_v14) ?_
  funext a
  apply Fin.ext
  match a with
  | ⟨0, _⟩ => show win0_3.index t 0 * 1 + 1 * (y 0).val = (y 0).val; rw [e0]; omega
  | ⟨1, _⟩ => show win0_3.index t 1 * 64 + 1 * (y 1).val = (y 1).val; rw [e1]; omega

/-- Window 4's block at every point is the whole array (it does not move with the grid). -/
theorem whole4 (c : Dev nD) (t : Fin cfg0.N) : (iblk m c 4 t : Vec Ideal S64x128 .bf16) = V m c main_v11 := by
  obtain ⟨-, -, -, -, e0, e1, -, -, -, -, -, -, -, -, -, -⟩ := still_facts t
  funext y
  unfold iblk
  rw [View.read_apply]
  show V m c main_v11 _ = V m c main_v11 y
  refine congrArg (V m c main_v11) ?_
  funext a
  apply Fin.ext
  match a with
  | ⟨0, _⟩ => show win0_4.index t 0 * 64 + 1 * (y 0).val = (y 0).val; rw [e0]; omega
  | ⟨1, _⟩ => show win0_4.index t 1 * 128 + 1 * (y 1).val = (y 1).val; rw [e1]; omega

/-- Window 5's block at every point is the whole array (it does not move with the grid). -/
theorem whole5 (c : Dev nD) (t : Fin cfg0.N) : (iblk m c 5 t : Vec Ideal S1x128 .f32) = V m c main_v15 := by
  obtain ⟨-, -, -, -, -, -, e0, e1, -, -, -, -, -, -, -, -⟩ := still_facts t
  funext y
  unfold iblk
  rw [View.read_apply]
  show V m c main_v15 _ = V m c main_v15 y
  refine congrArg (V m c main_v15) ?_
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

/-- Window 6's block at every point is the whole array (it does not move with the grid). -/
theorem whole6 (c : Dev nD) (t : Fin cfg0.N) : (iblk m c 6 t : Vec Ideal S128x64 .bf16) = V m c main_v12 := by
  obtain ⟨-, -, -, -, -, -, -, -, e0, e1, -, -, -, -, -, -⟩ := still_facts t
  funext y
  unfold iblk
  rw [View.read_apply]
  show V m c main_v12 _ = V m c main_v12 y
  refine congrArg (V m c main_v12) ?_
  funext a
  apply Fin.ext
  match a with
  | ⟨0, _⟩ => show win0_6.index t 0 * 128 + 1 * (y 0).val = (y 0).val; rw [e0]; omega
  | ⟨1, _⟩ => show win0_6.index t 1 * 64 + 1 * (y 1).val = (y 1).val; rw [e1]; omega

/-- Window 7's block at every point is the whole array (it does not move with the grid). -/
theorem whole7 (c : Dev nD) (t : Fin cfg0.N) : (iblk m c 7 t : Vec Ideal S1x64 .f32) = V m c main_v16 := by
  obtain ⟨-, -, -, -, -, -, -, -, -, -, e0, e1, -, -, -, -⟩ := still_facts t
  funext y
  unfold iblk
  rw [View.read_apply]
  show V m c main_v16 _ = V m c main_v16 y
  refine congrArg (V m c main_v16) ?_
  funext a
  apply Fin.ext
  match a with
  | ⟨0, _⟩ => show win0_7.index t 0 * 1 + 1 * (y 0).val = (y 0).val; rw [e0]; omega
  | ⟨1, _⟩ => show win0_7.index t 1 * 64 + 1 * (y 1).val = (y 1).val; rw [e1]; omega

/-- Window 8's block at every point is the whole array (it does not move with the grid). -/
theorem whole8 (c : Dev nD) (t : Fin cfg0.N) : (iblk m c 8 t : Vec Ideal S64x32 .bf16) = V m c main_v13 := by
  obtain ⟨-, -, -, -, -, -, -, -, -, -, -, -, e0, e1, -, -⟩ := still_facts t
  funext y
  unfold iblk
  rw [View.read_apply]
  show V m c main_v13 _ = V m c main_v13 y
  refine congrArg (V m c main_v13) ?_
  funext a
  apply Fin.ext
  match a with
  | ⟨0, _⟩ => show win0_8.index t 0 * 64 + 1 * (y 0).val = (y 0).val; rw [e0]; omega
  | ⟨1, _⟩ => show win0_8.index t 1 * 32 + 1 * (y 1).val = (y 1).val; rw [e1]; omega

/-- Window 9's block at every point is the whole array (it does not move with the grid). -/
theorem whole9 (c : Dev nD) (t : Fin cfg0.N) : (iblk m c 9 t : Vec Ideal S1x32 .f32) = V m c main_v17 := by
  obtain ⟨-, -, -, -, -, -, -, -, -, -, -, -, -, -, e0, e1⟩ := still_facts t
  funext y
  unfold iblk
  rw [View.read_apply]
  show V m c main_v17 _ = V m c main_v17 y
  refine congrArg (V m c main_v17) ?_
  funext a
  apply Fin.ext
  match a with
  | ⟨0, _⟩ => show win0_9.index t 0 * 1 + 1 * (y 0).val = (y 0).val; rw [e0]; omega
  | ⟨1, _⟩ => show win0_9.index t 1 * 32 + 1 * (y 1).val = (y 1).val; rw [e1]; omega

/-! ## What a point writes back -/

/-- The message array after the region: the perceptron of the gathered node features, the edge attributes, the
    weights and the bias rows, as the region finds them. -/
abbrev G (c : Dev nD) : Vec Ideal S1600000x32 .f32 :=
  mlp (V m c main_v9 : Vec Ideal S1600000x32 .bf16) (V m c main_arg2 : Vec Ideal S1600000x32 .f32)
    (V m c main_v10 : Vec Ideal S64x64 .bf16) (V m c main_v14 : Vec Ideal S1x64 .f32)
    (V m c main_v11 : Vec Ideal S64x128 .bf16) (V m c main_v15 : Vec Ideal S1x128 .f32)
    (V m c main_v12 : Vec Ideal S128x64 .bf16) (V m c main_v16 : Vec Ideal S1x64 .f32)
    (V m c main_v13 : Vec Ideal S64x32 .bf16) (V m c main_v17 : Vec Ideal S1x32 .f32)

/-- The output block of two row blocks, at entry y, is the whole arrays' perceptron at row p, column y 1 — whenever row
    y 0 of each row block is row p of its array (the perceptron works one row at a time). -/
theorem block_at (xb0 : Vec Ideal S8000x32 .bf16) (xb1 : Vec Ideal S8000x32 .f32)
    (X0 : Vec Ideal S1600000x32 .bf16) (X1 : Vec Ideal S1600000x32 .f32)
    (w1 : Vec Ideal S64x64 .bf16) (b1 : Vec Ideal S1x64 .f32) (w2 : Vec Ideal S64x128 .bf16) (b2 : Vec Ideal S1x128 .f32)
    (w3 : Vec Ideal S128x64 .bf16) (b3 : Vec Ideal S1x64 .f32) (w4 : Vec Ideal S64x32 .bf16) (b4 : Vec Ideal S1x32 .f32)
    (y : S8000x32.Idx) (p : Fin 1600000) (h0 : RowEq xb0 (y 0) X0 p) (h1 : RowEq xb1 (y 0) X1 p) :
    out0_10 (F := Ideal) xb0 xb1 w1 b1 w2 b2 w3 b3 w4 b4 y = mlp X0 X1 w1 b1 w2 b2 w3 b3 w4 b4 (ix2 p (y 1)) := by
  rw [Block.block_eq]
  conv_lhs => rw [eq_ix2 y]
  exact mlp_row h0 h1 w1 b1 w2 b2 w3 b3 w4 b4 (y 1)

/-- WHAT POINT t WRITES BACK is block t of `G`. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10, whole2 m c t, whole3 m c t, whole4 m c t, whole5 m c t, whole6 m c t, whole7 m c t, whole8 m c t, whole9 m c t]
  obtain ⟨-, -, -, -, e0, e1⟩ := idx_facts t
  have hN : cfg0.N = 200 := N_0
  have ht : t.val < 200 := hN ▸ t.isLt
  funext y
  have hy : (y 0).val < 8000 := (y 0).isLt
  have hp : 8000 * t.val + (y 0).val < 1600000 := by omega
  show out0_10 (iblk m c 0 t) (iblk m c 1 t) (V m c main_v10) (V m c main_v14) (V m c main_v11) (V m c main_v15)
      (V m c main_v12) (V m c main_v16) (V m c main_v13) (V m c main_v17) y = G m c (((cfg0.win 10).blk t).view.emb y)
  have key : ((cfg0.win 10).blk t).view.emb y = ix2 (⟨8000 * t.val + (y 0).val, hp⟩ : Fin 1600000) (y 1) := by
    funext a
    apply Fin.ext
    match a with
    | ⟨0, _⟩ => show win0_10.index t 0 * 8000 + 1 * (y 0).val = 8000 * t.val + (y 0).val; rw [e0]; omega
    | ⟨1, _⟩ => show win0_10.index t 1 * 32 + 1 * (y 1).val = (y 1).val; rw [e1]; omega
  rw [key]
  exact block_at (iblk m c 0 t) (iblk m c 1 t) (V m c main_v9) (V m c main_arg2) (V m c main_v10) (V m c main_v14)
    (V m c main_v11) (V m c main_v15) (V m c main_v12) (V m c main_v16) (V m c main_v13) (V m c main_v17) y
    ⟨8000 * t.val + (y 0).val, hp⟩ (rows0 m c t (y 0) _ rfl) (rows1 m c t (y 0) _ rfl)

/-! ## The blocks tile the array -/

/-- An index of the message array is in point t's block iff each coordinate is in the block's range on its axis. -/
theorem mem_blk (t : Fin cfg0.N) (i : S1600000x32.Idx) :
    i ∈ ((cfg0.win 10).blk t).view.set ↔ ∀ a : Fin 2, win0_10.index t a * S8000x32.size a ≤ (i a).val
      ∧ (i a).val < win0_10.index t a * S8000x32.size a + S8000x32.size a := by
  show i ∈ ((View.whole main_v18).slice (win0_10.rect t)).set ↔ _
  rw [View.set_slice_whole, Rect.mem_set_unit]
  exact Iff.rfl

/-- Row r of the message array is in the block of point r / 8000. -/
theorem cover (i : S1600000x32.Idx) :
    ∃ t : Fin cfg0.N, (cfg0.win 10).flush t = true ∧ i ∈ ((cfg0.win 10).blk t).view.set := by
  have hi0 : (i 0).val < 1600000 := (i 0).isLt
  have hi1 : (i 1).val < 32 := (i 1).isLt
  have hN : cfg0.N = 200 := N_0
  have hlt : (i 0).val / 8000 < cfg0.N := by rw [hN]; omega
  obtain ⟨-, -, -, -, e0, e1⟩ := idx_facts ⟨(i 0).val / 8000, hlt⟩
  refine ⟨⟨(i 0).val / 8000, hlt⟩, flush0_10 _, ?_⟩
  rw [mem_blk]
  intro a
  match a with
  | ⟨0, _⟩ =>
    show win0_10.index ⟨(i 0).val / 8000, hlt⟩ (0 : Fin 2) * 8000 ≤ (i 0).val
      ∧ (i 0).val < win0_10.index ⟨(i 0).val / 8000, hlt⟩ (0 : Fin 2) * 8000 + 8000
    rw [e0]
    show (i 0).val / 8000 * 8000 ≤ (i 0).val ∧ (i 0).val < (i 0).val / 8000 * 8000 + 8000
    omega
  | ⟨1, _⟩ =>
    show win0_10.index ⟨(i 0).val / 8000, hlt⟩ (1 : Fin 2) * 32 ≤ (i 1).val
      ∧ (i 1).val < win0_10.index ⟨(i 0).val / 8000, hlt⟩ (1 : Fin 2) * 32 + 32
    rw [e1]
    omega

/-- THE MESSAGE ARRAY after the region is `G`. -/
theorem final (c : Dev nD) : (dats m 0 c).arrAt 10 cfg0.N = G m c :=
  (dats m 0 c).arrAt_eq_of_cover 10 (G m c) (fun t _ => flushed_eq m c t) cover

end Cert.KernelIdeal.Messages

end
-- ==== Proof.Result.lean ====
/-
  The result both programs compute, as one function of the eleven argument arrays.

  Edge e points at its target node dst(e), row 1 of the edge index (`dst`).  Its message is the perceptron
  (`Cert.Mlp.mlp`) of the target's 32 features — the node table's row at dst(e), a negative index counted from the end
  (`gathered`) — joined with the edge's 32 attributes, under the four weight matrices and the four bias vectors laid
  as rows.  A node's result row is the sum of the messages of the edges that point at it divided by the larger of
  their number and one (`meanAt`: both sums are scatter-additions into zeros at the raw dst, the count a
  scatter-addition of ones).

  The gather, the two scatter-additions and the division are the host's own operations on both sides: they are named
  here and never opened.
-/
import proofs.«179524_j45526653337868_2_alg».proof.ReferenceIdeal
import proofs.«179524_j45526653337868_2_alg».proof.Proof.Gen.ReferenceIdeal
import proofs.«179524_j45526653337868_2_alg».proof.Proof.Mlp

noncomputable section

namespace Cert.Result

open Idealize.ShloMosaic Cert.ReferenceIdeal Cert.ReferenceIdeal.Gen Cert.LibRowStages Cert.Mlp

/-- The target node of each edge: row 1 of the [2, 1600000] edge index, as a vector. -/
def dst (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The node table's rows at the edges' targets; a negative target counts from the end of the table. -/
def gathered (x : (⟨S50000x32, .f32⟩ : BufTy).Contents (Elt Ideal)) (d : (⟨S1600000, .i32⟩ : BufTy).Contents (Elt Ideal)) :
    (⟨S1600000x32, .f32⟩ : BufTy).Contents (Elt Ideal) :=
  Host.gather gather_S50000x32_S1600000x1_S1600000x32_1_0_n_n_0_1_132 x
    (broadcastInDim S1600000x1 ![0] bcast_S1600000_S1600000x1_0
      (select (cmpi .slt d (broadcastInDim S1600000 ![] bcast_S_S1600000 (constantI S_ 32 0#32)))
        (addi d (broadcastInDim S1600000 ![] bcast_S_S1600000 (constantI S_ 32 50000#32))) d))

/-- Each node's mean message: the messages summed at their targets, divided by the larger of the count and one. -/
def meanAt (d : (⟨S1600000, .i32⟩ : BufTy).Contents (Elt Ideal)) (msg : (⟨S1600000x32, .f32⟩ : BufTy).Contents (Elt Ideal)) :
    (⟨S50000x32, .f32⟩ : BufTy).Contents (Elt Ideal) :=
  Host.divf (F := Ideal)
    (Host.scatterAdd scatter_S50000x32_S1600000x1_S1600000x32_1_0_0_1
      (broadcastInDim S50000x32 ![] bcast_S_S50000x32 (constant (F := Ideal) S_ .f32 0x00000000#32))
      (broadcastInDim S1600000x1 ![0] bcast_S1600000_S1600000x1_0 d) msg)
    (broadcastInDim S50000x32 ![0, 1] bcast_S50000x1_S50000x32_0_1
      (broadcastInDim S50000x1 ![0] bcast_S50000_S50000x1_0
        (maximumf
          (Host.scatterAdd scatter_S50000_S1600000x1_S1600000_n_0_0_1
            (broadcastInDim S50000 ![] bcast_S_S50000 (constant (F := Ideal) S_ .f32 0x00000000#32))
            (broadcastInDim S1600000x1 ![0] bcast_S1600000_S1600000x1_0 d)
            (broadcastInDim S1600000 ![] bcast_S_S1600000 (constant (F := Ideal) S_ .f32 0x3F800000#32)))
          (broadcastInDim S50000 ![] bcast_S_S50000 (constant (F := Ideal) S_ .f32 0x3F800000#32)))))

/-- A vector of k entries and a one-row matrix of k columns have the same number of entries. -/
theorem cast64 : (⟨1, ![64]⟩ : Shape).ShapeCasts ⟨2, ![1, 64]⟩ := by decide
theorem cast128 : (⟨1, ![128]⟩ : Shape).ShapeCasts ⟨2, ![1, 128]⟩ := by decide
theorem cast32 : (⟨1, ![32]⟩ : Shape).ShapeCasts ⟨2, ![1, 32]⟩ := by decide

/-- The result: each node's mean message, the messages the perceptron of the gathered target features joined with the
    edge attributes, each bias vector laid as a one-row matrix. -/
def result (x : (⟨S50000x32, .f32⟩ : BufTy).Contents (Elt Ideal)) (ei : (⟨S2x1600000, .i32⟩ : BufTy).Contents (Elt Ideal))
    (ea : (⟨S1600000x32, .f32⟩ : BufTy).Contents (Elt Ideal))
    (w1 : (⟨S64x64, .f32⟩ : BufTy).Contents (Elt Ideal)) (b1 : (⟨S64, .f32⟩ : BufTy).Contents (Elt Ideal))
    (w2 : (⟨S64x128, .f32⟩ : BufTy).Contents (Elt Ideal)) (b2 : (⟨S128, .f32⟩ : BufTy).Contents (Elt Ideal))
    (w3 : (⟨S128x64, .f32⟩ : BufTy).Contents (Elt Ideal)) (b3 : (⟨S64, .f32⟩ : BufTy).Contents (Elt Ideal))
    (w4 : (⟨S64x32, .f32⟩ : BufTy).Contents (Elt Ideal)) (b4 : (⟨S32, .f32⟩ : BufTy).Contents (Elt Ideal)) :
    (⟨S50000x32, .f32⟩ : BufTy).Contents (Elt Ideal) :=
  meanAt (dst ei)
    (mlp (gathered x (dst ei)) ea w1 (shapeCast ⟨2, ![1, 64]⟩ b1 cast64) w2 (shapeCast ⟨2, ![1, 128]⟩ b2 cast128)
      w3 (shapeCast ⟨2, ![1, 64]⟩ b3 cast64) w4 (shapeCast ⟨2, ![1, 32]⟩ b4 cast32))

end Cert.Result

end
-- ==== Proof.KernelValue.lean ====
/-
  The kernel's program computes `Cert.Result.result` of its arguments.

  Before the region the host lines cut the target vector out of the edge index, gather the node table's rows at the
  targets (the table first changed to a narrower float format, which changes no extended real), change the four
  weight matrices' format likewise and lay the four bias vectors as rows: so the arrays the region finds are
  `result`'s own gathered rows, weights and bias rows.  The region leaves the message array at the perceptron of
  those (`Messages.final`).  After the region the host lines take each node's mean message by the same two
  scatter-additions and the same division as the reference: the tail applied to the message array is `result`.
-/
import proofs.«179524_j45526653337868_2_alg».proof.Proof.Gen.KernelIdeal.Frame
import proofs.«179524_j45526653337868_2_alg».proof.Proof.KernelMessages
import proofs.«179524_j45526653337868_2_alg».proof.Proof.Result
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.LibRowStages Cert.Mlp Cert.Result Idealize.ShloMosaic.StableHlo

variable (m : (ℓ : Loc nD τ sig) → Buf (Elt Ideal) ℓ) (ρ : Dev nD → PrngReg)

/-! ## The arrays the region finds -/

/-- The target vector. -/
theorem V_dst (c : Dev nD) : V m c main_v1 = dst (m ((c.tc : Thread nD τ).loc main_arg1)) := by
  show StableHlo.after hostOps0 (fun b => m (c, b)) (Proc.devRef .tc main_v1) = _
  after_results
  rfl

/-- The gathered rows of the node table: the change of float format before the gather changes nothing. -/
theorem V_gathered (c : Dev nD) : V m c main_v9
    = gathered (m ((c.tc : Thread nD τ).loc main_arg0)) (dst (m ((c.tc : Thread nD τ).loc main_arg1))) := by
  show StableHlo.after hostOps0 (fun b => m (c, b)) (Proc.devRef .tc main_v9) = _
  after_results
  rfl

/-- The four weight matrices, their float format changed: the same extended reals. -/
theorem V_w1 (c : Dev nD) : V m c main_v10 = m ((c.tc : Thread nD τ).loc main_arg3) := by
  show StableHlo.after hostOps0 (fun b => m (c, b)) (Proc.devRef .tc main_v10) = _
  after_results
  rfl
theorem V_w2 (c : Dev nD) : V m c main_v11 = m ((c.tc : Thread nD τ).loc main_arg5) := by
  show StableHlo.after hostOps0 (fun b => m (c, b)) (Proc.devRef .tc main_v11) = _
  after_results
  rfl
theorem V_w3 (c : Dev nD) : V m c main_v12 = m ((c.tc : Thread nD τ).loc main_arg7) := by
  show StableHlo.after hostOps0 (fun b => m (c, b)) (Proc.devRef .tc main_v12) = _
  after_results
  rfl
theorem V_w4 (c : Dev nD) : V m c main_v13 = m ((c.tc : Thread nD τ).loc main_arg9) := by
  show StableHlo.after hostOps0 (fun b => m (c, b)) (Proc.devRef .tc main_v13) = _
  after_results
  rfl

/-- The four bias vectors laid as rows. -/
theorem V_b1 (c : Dev nD) : V m c main_v14 = shapeCast ⟨2, ![1, 64]⟩ (m ((c.tc : Thread nD τ).loc main_arg4)) cast64 := by
  show StableHlo.after hostOps0 (fun b => m (c, b)) (Proc.devRef .tc main_v14) = _
  after_results
  rfl
theorem V_b2 (c : Dev nD) : V m c main_v15 = shapeCast ⟨2, ![1, 128]⟩ (m ((c.tc : Thread nD τ).loc main_arg6)) cast128 := by
  show StableHlo.after hostOps0 (fun b => m (c, b)) (Proc.devRef .tc main_v15) = _
  after_results
  rfl
theorem V_b3 (c : Dev nD) : V m c main_v16 = shapeCast ⟨2, ![1, 64]⟩ (m ((c.tc : Thread nD τ).loc main_arg8)) cast64 := by
  show StableHlo.after hostOps0 (fun b => m (c, b)) (Proc.devRef .tc main_v16) = _
  after_results
  rfl
theorem V_b4 (c : Dev nD) : V m c main_v17 = shapeCast ⟨2, ![1, 32]⟩ (m ((c.tc : Thread nD τ).loc main_arg10)) cast32 := by
  show StableHlo.after hostOps0 (fun b => m (c, b)) (Proc.devRef .tc main_v17) = _
  after_results
  rfl

/-- So the message array after the region is the perceptron `result` takes the mean of. -/
theorem messages_eq (c : Dev nD) : Messages.G m c
    = mlp (gathered (m ((c.tc : Thread nD τ).loc main_arg0)) (dst (m ((c.tc : Thread nD τ).loc main_arg1))))
        (m ((c.tc : Thread nD τ).loc main_arg2)) (m ((c.tc : Thread nD τ).loc main_arg3))
        (shapeCast ⟨2, ![1, 64]⟩ (m ((c.tc : Thread nD τ).loc main_arg4)) cast64) (m ((c.tc : Thread nD τ).loc main_arg5))
        (shapeCast ⟨2, ![1, 128]⟩ (m ((c.tc : Thread nD τ).loc main_arg6)) cast128) (m ((c.tc : Thread nD τ).loc main_arg7))
        (shapeCast ⟨2, ![1, 64]⟩ (m ((c.tc : Thread nD τ).loc main_arg8)) cast64) (m ((c.tc : Thread nD τ).loc main_arg9))
        (shapeCast ⟨2, ![1, 32]⟩ (m ((c.tc : Thread nD τ).loc main_arg10)) cast32) := by
  unfold Messages.G
  rw [V_gathered, V_main_arg2, V_w1, V_b1, V_w2, V_b2, V_w3, V_b3, V_w4, V_b4]

/-! ## The lines after the region -/

/-- What the program's result buffer holds after the lines that follow the region. -/
theorem tail_eq (c : Dev nD) :
    Pipeline.afterTail₀ cfgs (dats m) 0 (V0 m) [hostOps1] c main_v30 = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v30) = _
  generalize hR : result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = R
  after_results
  rw [← hR]
  have hmsg : Pipeline.withArrays (cfgs 0).spec c (V0 m c) (fun w => (dats m 0 c).arrAt w (cfgs 0).N)
      (Proc.devRef .tc main_v18) = Messages.G m c :=
    (Pipeline.withArrays_arr spec0 launch0.win.arr_inj c _ _ 10).trans (Messages.final m c)
  have hdst : Pipeline.withArrays (cfgs 0).spec c (V0 m c) (fun w => (dats m 0 c).arrAt w (cfgs 0).N)
      (Proc.devRef .tc main_v1) = dst (m ((c.tc : Thread nD τ).loc main_arg1)) :=
    (Pipeline.withArrays_of_ne spec0 c (V0 m c) _ main_v1
      (by exact (by decide : ∀ w, Pipeline.arrRef spec0 w ≠ main_v1))).trans (V_dst m c)
  rw [hmsg, hdst, messages_eq]
  rfl

/-- The kernel's run: the result buffer ends at `result` of the argument arrays, the arguments unchanged. -/
theorem run : θ_run defs (onTc (τ := τ) (main (F := Ideal))) ⟨m, fun _ => 0, ρ⟩ fun r => ∀ c : Dev nD,
      r.2.mem ((c.tc : Thread nD τ).loc main_v30) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KernelValue

end
-- ==== Proof.RefValue.lean ====
/-
  The reference computes `Cert.Result.result` of its arguments.

  Its run ends with the result buffer at one closed term of the argument arrays.  Inside that term each of the four
  layers is spelt as a host program spells it — the contraction, the bias vector placed as a row and spread over the
  rows, the maximum against a spread zero — which is one `layer` of the perceptron with the bias vector laid as a row
  (`Cert.LibLayer.host_layer`); the two-piece concatenation is the join.  What surrounds the layers (the target vector, the
  gather, the mean by scatter-addition) is `result`'s own text.
-/
import proofs.«179524_j45526653337868_2_alg».proof.Proof.Gen.ReferenceIdeal.Run
import proofs.«179524_j45526653337868_2_alg».proof.Proof.Result

noncomputable section

open Idealize.ShloMosaic Idealize.ShloMosaic.TcCoe Idealize.SL.Sem

namespace Cert.ReferenceIdeal.RefValue

open Cert.ReferenceIdeal Cert.ReferenceIdeal.Gen Cert.LibRowStages Cert.LibLayer Cert.Mlp Cert.Result

/-- The reference's run: the result buffer ends at `result` of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ⟨(h c).1.trans ?_, (h c).2⟩) (Cert.ReferenceIdeal.Value.run (F := Ideal) m ρ)
  rw [host_layer dot_S1600000x64_S64x64_S1600000x64_1_0_0_1_n_n rfl rfl rfl rfl rfl rfl _ _ _ cast64,
    host_layer dot_S1600000x64_S64x128_S1600000x128_1_0_0_1_n_n rfl rfl rfl rfl rfl rfl _ _ _ cast128,
    host_layer dot_S1600000x128_S128x64_S1600000x64_1_0_0_1_n_n rfl rfl rfl rfl rfl rfl _ _ _ cast64,
    host_layer dot_S1600000x64_S64x32_S1600000x32_1_0_0_1_n_n rfl rfl rfl rfl rfl rfl _ _ _ cast32,
    concatenate_eq_join]
  rfl

end Cert.ReferenceIdeal.RefValue

end
-- ==== Proof.lean ====
/-
  Mean aggregation of edge messages on a graph: a tiled perceptron kernel against the plain formula.

  Both programs take a node table x [50000, 32], an edge index [2, 1600000], edge attributes [1600000, 32], four
  weight matrices and four bias vectors.  Edge e's message is a four-layer perceptron (widths 64, 128, 64, 32; each
  layer a matrix product, a bias, the floor at zero) of the features of its target node dst(e) joined with its own
  attributes; a node's result row is the mean of the messages of the edges pointing at it, the divisor the larger of
  their number and one.  Both cut dst out of the edge index, gather the target rows, and take the mean by two
  scatter-additions and a division with the same host operations; they differ in the middle only.  The kernel's
  program computes the messages 8000 edges at a time on 200 grid points, its matrix products on operands of a narrower
  float format; the reference computes them as four whole-matrix contractions.

  At the exact extended reals a change of float format is the identity, a matrix-unit product into the zero
  accumulator and a contraction are the same sum of products, and the perceptron works one row at a time
  (`Cert.Mlp.mlp_row`), so 200 blocks of 8000 rows give the rows of the whole perceptron.  Hence both programs end at
  `Cert.Result.result` of their arguments (`KernelValue.run`, `RefValue.run`), and on arguments that agree these are
  one term.  No sum is reordered, nothing is distributed or cancelled: the inputs' finiteness is never used.
  The idealized kernel is the kernel's own text read at the extended reals (no operation was rewritten), so there is
  nothing to preserve; each program's frame is its run with the result forgotten.
-/
import proofs.«179524_j45526653337868_2_alg».proof.Defs
import proofs.«179524_j45526653337868_2_alg».proof.Proof.Gen.Kernel
import proofs.«179524_j45526653337868_2_alg».proof.Proof.Gen.Kernel.Skeleton
import proofs.«179524_j45526653337868_2_alg».proof.Proof.Gen.Kernel.Launch
import proofs.«179524_j45526653337868_2_alg».proof.Proof.Gen.Kernel.Points
import proofs.«179524_j45526653337868_2_alg».proof.Proof.Gen.Kernel.Frame
import proofs.«179524_j45526653337868_2_alg».proof.Proof.Gen.KernelIdeal
import proofs.«179524_j45526653337868_2_alg».proof.Proof.Gen.KernelIdeal.Skeleton
import proofs.«179524_j45526653337868_2_alg».proof.Proof.Gen.KernelIdeal.Launch
import proofs.«179524_j45526653337868_2_alg».proof.Proof.Gen.KernelIdeal.Points
import proofs.«179524_j45526653337868_2_alg».proof.Proof.Gen.KernelIdeal.Frame
import proofs.«179524_j45526653337868_2_alg».proof.Proof.Gen.ReferenceIdeal
import proofs.«179524_j45526653337868_2_alg».proof.Proof.Gen.ReferenceIdeal.Run
import proofs.«179524_j45526653337868_2_alg».proof.Proof.Gen.Pre_finite_inputs
import proofs.«179524_j45526653337868_2_alg».proof.Proof.KernelValue
import proofs.«179524_j45526653337868_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at `Cert.Result.result` of their arguments; the arguments agree. -/
theorem algebraic : Cert.algebraic_KernelIdeal_ReferenceIdeal := by
  intro m ρ m' ρ' _ hagree
  refine ⟨fun c => Cert.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10⟩ := hagree c
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
